-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 95
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000, .f32⟩
  | .hbm, ⟨47, _⟩ => ⟨S100000x128, .bf16⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x64, .bf16⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S1600000x1, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .bf16⟩
  | .local _ .vmem, ⟨10, _⟩ => ⟨S10000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S_, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S_, .f32⟩
  | 86 => ⟨S1600000, .f32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x1, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S100000, .f32⟩
  | _ => ⟨S100000x128, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run with its result named. @main is five segments: a stretch of host operations, the first
  row-tiled product, a second stretch, the second row-tiled product, a last stretch. The buffer contents at the
  segment boundaries are a fold from the launch memory (a stretch applies its operations in order; a product leaves
  its output array at what its write-backs leave and every other buffer as entered), and at the return every
  unscoped buffer holds what the fold's last boundary says. So the result buffer ends at the last boundary's value,
  and each argument at its launch contents.
-/
import proofs.«169246_j67027259622057_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run_fold : θ_run defs (onTc (τ := τ) (main (F := F))) ⟨m, fun _ => 0, ρ⟩ (fun r => ∀ c : Dev nD,
      r.2.mem ((c.tc : Thread nD τ).loc main_v73) = W5 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v73 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Hand

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.Dense.lean ====
/-
  The two products of the network on whole arrays, and the kernels' bodies as row tiles of them.

  Layer one multiplies the node features X (100000 × 128) by W₁ (128 × 128); layer two multiplies
  relu (A + b₁) by W₂ (128 × 64), A the aggregated first layer and b₁ its bias as a 1 × 128 row. Each kernel body
  sees 10000 consecutive rows of the left operand and the whole right operand. Row r₀ + p of a product only reads row
  r₀ + p of its left operand, a bias row is the same in every row, and a maximum with zero acts entry by entry, so
  what a body computes from rows [r₀, r₀ + 10000) is rows [r₀, r₀ + 10000) of the whole-array result. On the extended
  reals a change of float format is the identity, and a product accumulated into zero is the plain sum over k.
-/
import proofs.«169246_j67027259622057_2_alg».proof.Proof.Gen.KernelIdeal.Skeleton
import proofs.«169246_j67027259622057_2_alg».proof.Proof.Gen.ReferenceIdeal.Read
import proofs.«169246_j67027259622057_2_alg».proof.Proof.LibTile
import Idealize.ShloMosaic.Lib.Pipeline.Value

noncomputable section

namespace Cert.Dense

open Idealize.ShloMosaic Idealize.ShloMosaic.ValueIdx Cert.Tile

/-- Layer two's product on whole arrays, in the host's operations: relu (A + b) · W, the bias a 1 × 128 row repeated
    down the rows, the zero of the maximum a splat. -/
def second (A : FVec Ideal Cert.ReferenceIdeal.S100000x128 .f32) (b : FVec Ideal Cert.ReferenceIdeal.S1x128 .f32)
    (w : FVec Ideal Cert.ReferenceIdeal.S128x64 .f32) : FVec Ideal Cert.ReferenceIdeal.S100000x64 .f32 :=
  Host.dotGeneral (F := Ideal) Cert.ReferenceIdeal.dot_S100000x128_S128x64_S100000x64_1_0_0_1_n_n none
    (maximumf (addf A (broadcastInDim Cert.ReferenceIdeal.S100000x128 ![0, 1] Cert.ReferenceIdeal.Facts₀.bcast_S1x128_S100000x128_0_1 b))
      (Cert.ReferenceIdeal.Read.val_main_call0_v0 (F := Ideal))) w

variable {r0 : Nat} {hr : r0 + 10000 ≤ 100000}

/-- Layer one: the body's value on rows [r₀, r₀ + 10000) of X is those rows of X · W₁. -/
theorem tile_first (x : Vec Ideal Cert.KernelIdeal.S10000x128 .f32) (w : Vec Ideal Cert.KernelIdeal.S128x128 .f32)
    (X : FVec Ideal Cert.ReferenceIdeal.S100000x128 .f32) (W : FVec Ideal Cert.ReferenceIdeal.S128x128 .f32)
    (hx : IsTile r0 hr x X) (hw : w = W) :
    IsTile r0 hr (Cert.KernelIdeal.Gen.k0_pay1 (F := Ideal) x w) (Cert.ReferenceIdeal.Read.val_main_v4 (F := Ideal) X W) := by
  subst hw
  exact Tile.matmul (K := 128) (N := 128) w hx

/-- Layer two: the body's value on rows [r₀, r₀ + 10000) of A is those rows of relu (A + b) · W₂. -/
theorem tile_second (x : Vec Ideal Cert.KernelIdeal.S10000x128 .f32) (b : Vec Ideal Cert.KernelIdeal.S1x128 .f32)
    (w : Vec Ideal Cert.KernelIdeal.S128x64 .f32) (A : FVec Ideal Cert.ReferenceIdeal.S100000x128 .f32)
    (B : FVec Ideal Cert.ReferenceIdeal.S1x128 .f32) (W : FVec Ideal Cert.ReferenceIdeal.S128x64 .f32)
    (hx : IsTile r0 hr x A) (hb : b = B) (hw : w = W) :
    IsTile r0 hr (Cert.KernelIdeal.Gen.k1_pay1 (F := Ideal) x b w) (second A B W) := by
  subst hb hw
  have hrow : IsTile r0 hr (broadcastTo Cert.KernelIdeal.S10000x128 b Cert.KernelIdeal.Facts₀.broadcasts_S1x128_S10000x128)
      (broadcastInDim Cert.ReferenceIdeal.S100000x128 ![0, 1] Cert.ReferenceIdeal.Facts₀.bcast_S1x128_S100000x128_0_1 b) :=
    Tile.rowRep b _ _
  have hz : IsTile r0 hr (broadcast Cert.KernelIdeal.S10000x128 (Scalar.ofBits (F := Ideal) .f32 0x00000000#32))
      (Cert.ReferenceIdeal.Read.val_main_call0_v0 (F := Ideal)) :=
    Tile.splat _ (Cert.ReferenceIdeal.Read.val_main_call0_cst (F := Ideal)) rfl _
  have hrelu := Tile.map₂ (fun u v => FloatOps.maximumf (F := Ideal) (φ := .f32) u v)
    (Tile.map₂ (fun u v => FloatOps.addf (F := Ideal) (φ := .f32) u v) hx hrow) hz
  have hmm := Tile.matmul (K := 128) (N := 64) w hrelu
  intro p l
  simp only [Cert.KernelIdeal.Gen.k1_pay1, shapeCast_self]
  exact hmm p l

end Cert.Dense

end
-- ==== Proof.Region0.lean ====
/-
  The first product's output array after its ten grid points. Point t reads rows [10000 t, 10000 t + 10000) of the
  node features and the whole weight matrix, and writes back rows [10000 t, 10000 t + 10000) of the output. Those
  rows are the same rows of the whole product X · W₁ (a product's row reads one row of its left operand), the ten row
  blocks cover the array (row r lies in block r / 10000), so the array ends holding X · W₁, whatever the contents the
  region is entered with.
-/
import proofs.«169246_j67027259622057_2_alg».proof.Proof.Gen.KernelIdeal.Frame
import proofs.«169246_j67027259622057_2_alg».proof.Proof.Dense
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Tile

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the whole-array windows at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows_le (t : Fin cfg0.N) : t.val * 10000 + 10000 ≤ 100000 := by
  have h : t.val < cfg0.N := t.isLt
  have hN : cfg0.N = 10 := N_0
  omega

/-- The left operand's block at point t is rows [10000 t, 10000 t + 10000) of its array. -/
theorem iblk0_rows (c : Dev nD) (t : Fin cfg0.N) :
    IsTile (t.val * 10000) (rows_le t) (iblk0 V c 0 t : Vec Ideal S10000x128 .f32) (V c main_arg0 : S100000x128.Idx → EReal) := by
  intro p l
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 128 + 1 * l.val = l.val; rw [e1]; omega

/-- Window 1 is its whole array at every point (block index zero on both axes). -/
theorem iblk0_1_whole (c : Dev nD) (t : Fin cfg0.N) (y : S128x128.Idx) :
    (iblk0 V c 1 t : Vec Ideal S128x128 .f32) y = (V c main_arg2 : S128x128.Idx → EReal) y := by
  obtain ⟨-, -, e0, e1, -, -⟩ := idx0 t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point t's body leaves at an entry of the output block is the whole-array product at the entry's place in the array. -/
theorem point (c : Dev nD) (t : Fin cfg0.N) (j : S10000x128.Idx) :
    k0_pay1 (F := Ideal) (iblk0 V c 0 t) (iblk0 V c 1 t) j
      = (truncf (F := Ideal) .bf16 (Cert.ReferenceIdeal.Read.val_main_v4 (F := Ideal) (V c main_arg0) (V c main_arg2)) Facts₀.bitsLt_bf16_f32 : S100000x128.Idx → EReal) (((cfg0.win 2).blk t).view.emb j) := by
  obtain ⟨p, l, rfl⟩ : ∃ (p : Fin 10000) (l : Fin 128), j = ix2 p l := ⟨j 0, j 1, eq_ix2 j⟩
  refine (Cert.Dense.tile_first (iblk0 V c 0 t) (iblk0 V c 1 t) (V c main_arg0) (V c main_arg2) (iblk0_rows V c t)
    (funext (iblk0_1_whole V c t)) p l).trans ?_
  obtain ⟨-, -, -, -, e0, e1⟩ := idx0 t
  refine congrArg (Cert.ReferenceIdeal.Read.val_main_v4 (F := Ideal) (V c main_arg0) (V c main_arg2)) ?_
  funext a
  apply Fin.ext
  match a with
  | ⟨0, _⟩ => show t.val * 10000 + p.val = win0_2.index t (0 : Fin 2) * 10000 + 1 * p.val; rw [e0]; omega
  | ⟨1, _⟩ => show l.val = win0_2.index t (1 : Fin 2) * 128 + 1 * l.val; rw [e1]; omega

/-- What point t writes back is block t of the whole-array product. -/
theorem flushed_eq (c : Dev nD) (t : Fin cfg0.N) :
    (dat0 V c).flushed 2 t = ((cfg0.win 2).blk t).view.read (Elt Ideal)
      (truncf (F := Ideal) .bf16 (Cert.ReferenceIdeal.Read.val_main_v4 (F := Ideal) (V c main_arg0) (V c main_arg2)) Facts₀.bitsLt_bf16_f32) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  exact point V c t j

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every index of the output array is in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e0, e1⟩ := idx0 t
  have ht : t.val = (i 0).val / 10000 := rfl
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 128 ≤ (i 1).val ∧ (i 1).val < win0_2.index t (1 : Fin 2) * 128 + 128
    rw [e1]; omega

/-- The output array after the region's last point: the whole-array product of the arrays the region was entered with. -/
theorem final (c : Dev nD) :
    (dat0 V c).arrAt 2 cfg0.N = truncf (F := Ideal) .bf16 (Cert.ReferenceIdeal.Read.val_main_v4 (F := Ideal) (V c main_arg0) (V c main_arg2)) Facts₀.bitsLt_bf16_f32 :=
  (dat0 V c).arrAt_eq_of_cover 2 _ (fun t _ => flushed_eq V c t) cover

end Cert.KernelIdeal.Region0

end
-- ==== Proof.Region1.lean ====
/-
  The second product's output array after its ten grid points. Point t reads rows [10000 t, 10000 t + 10000) of the
  aggregated first layer, the whole 1 × 128 bias row and the whole weight matrix, and writes back the same rows of the
  output: those rows of relu (A + b) · W₂ on whole arrays. The ten row blocks cover the array (row r lies in block
  r / 10000), so the array ends holding relu (A + b) · W₂, whatever the contents the region is entered with.
-/
import proofs.«169246_j67027259622057_2_alg».proof.Proof.Gen.KernelIdeal.Frame
import proofs.«169246_j67027259622057_2_alg».proof.Proof.Dense
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Tile

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the whole-array windows at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rows_le (t : Fin cfg1.N) : t.val * 10000 + 10000 ≤ 100000 := by
  have h : t.val < cfg1.N := t.isLt
  have hN : cfg1.N = 10 := N_1
  omega

/-- The left operand's block at point t is rows [10000 t, 10000 t + 10000) of its array. -/
theorem iblk1_rows (c : Dev nD) (t : Fin cfg1.N) :
    IsTile (t.val * 10000) (rows_le t) (iblk1 V c 0 t : Vec Ideal S10000x128 .f32) (V c main_v50 : S100000x128.Idx → EReal) := by
  intro p l
  obtain ⟨e0, e1, -, -, -, -, -, -⟩ := idx1 t
  unfold iblk1
  rw [View.read_apply]
  show V c main_v50 _ = V c main_v50 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 128 + 1 * l.val = l.val; rw [e1]; omega

/-- Window 1 is its whole array at every point (block index zero on both axes). -/
theorem iblk1_1_whole (c : Dev nD) (t : Fin cfg1.N) (y : S1x128.Idx) :
    (iblk1 V c 1 t : Vec Ideal S1x128 .f32) y = (V c main_v51 : S1x128.Idx → EReal) y := by
  obtain ⟨-, -, e0, e1, -, -, -, -⟩ := idx1 t
  unfold iblk1
  rw [View.read_apply]
  show V c main_v51 _ = V c main_v51 _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- Window 2 is its whole array at every point (block index zero on both axes). -/
theorem iblk1_2_whole (c : Dev nD) (t : Fin cfg1.N) (y : S128x64.Idx) :
    (iblk1 V c 2 t : Vec Ideal S128x64 .f32) y = (V c main_arg4 : S128x64.Idx → EReal) y := by
  obtain ⟨-, -, -, -, e0, e1, -, -⟩ := idx1 t
  unfold iblk1
  rw [View.read_apply]
  show V c main_arg4 _ = V c main_arg4 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- What point t's body leaves at an entry of the output block is the whole-array product at the entry's place in the array. -/
theorem point (c : Dev nD) (t : Fin cfg1.N) (j : S10000x64.Idx) :
    k1_pay1 (F := Ideal) (iblk1 V c 0 t) (iblk1 V c 1 t) (iblk1 V c 2 t) j
      = (truncf (F := Ideal) .bf16 (Cert.Dense.second (V c main_v50) (V c main_v51) (V c main_arg4)) Facts₀.bitsLt_bf16_f32 : S100000x64.Idx → EReal) (((cfg1.win 3).blk t).view.emb j) := by
  obtain ⟨p, l, rfl⟩ : ∃ (p : Fin 10000) (l : Fin 64), j = ix2 p l := ⟨j 0, j 1, eq_ix2 j⟩
  refine (Cert.Dense.tile_second (iblk1 V c 0 t) (iblk1 V c 1 t) (iblk1 V c 2 t) (V c main_v50) (V c main_v51) (V c main_arg4)
    (iblk1_rows V c t) (funext (iblk1_1_whole V c t)) (funext (iblk1_2_whole V c t)) p l).trans ?_
  obtain ⟨-, -, -, -, -, -, e0, e1⟩ := idx1 t
  refine congrArg (Cert.Dense.second (V c main_v50) (V c main_v51) (V c main_arg4)) ?_
  funext a
  apply Fin.ext
  match a with
  | ⟨0, _⟩ => show t.val * 10000 + p.val = win1_3.index t (0 : Fin 2) * 10000 + 1 * p.val; rw [e0]; omega
  | ⟨1, _⟩ => show l.val = win1_3.index t (1 : Fin 2) * 64 + 1 * l.val; rw [e1]; omega

/-- What point t writes back is block t of the whole-array product. -/
theorem flushed_eq (c : Dev nD) (t : Fin cfg1.N) :
    (dat1 V c).flushed 3 t = ((cfg1.win 3).blk t).view.read (Elt Ideal)
      (truncf (F := Ideal) .bf16 (Cert.Dense.second (V c main_v50) (V c main_v51) (V c main_arg4)) Facts₀.bitsLt_bf16_f32) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x64) hz]
  funext j
  exact point V c t j

/-- An index of the output array is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v52).slice (win1_3.rect t)).set ↔ _
  rw [View.set_slice_whole, Rect.mem_set_unit]
  exact Iff.rfl

/-- Every index of the output array is in the block of the point its row falls in. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e0, e1⟩ := idx1 t
  have ht : t.val = (i 0).val / 10000 := rfl
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 64 ≤ (i 1).val ∧ (i 1).val < win1_3.index t (1 : Fin 2) * 64 + 64
    rw [e1]; omega

/-- The output array after the region's last point: the whole-array product of the arrays the region was entered with. -/
theorem final (c : Dev nD) :
    (dat1 V c).arrAt 3 cfg1.N = truncf (F := Ideal) .bf16 (Cert.Dense.second (V c main_v50) (V c main_v51) (V c main_arg4)) Facts₀.bitsLt_bf16_f32 :=
  (dat1 V c).arrAt_eq_of_cover 3 _ (fun t _ => flushed_eq V c t) cover

end Cert.KernelIdeal.Region1

end
-- ==== Proof.Fold.lean ====
/-
  The fold through @main, boundary by boundary, in the reference's own stages.

  The kernel's host operations around its two products are the reference's: the edge list split into sources and
  targets, negative indices wrapped, the degree by a scatter-add of ones plus one, its inverse square root, the
  per-edge weight dinv[src] · dinv[dst] and the self-loop weight dinv², and per layer a gather of the product's rows
  at the sources, the product with the edge weights, a scatter-add into the targets, and the self-loop term added
  (then the second bias). So every buffer a later segment reads is, as a function of the argument arrays, one of the
  reference's stages: the first product's array is X · W₁ (a change of float format being the identity on the
  extended reals), the second region is entered with the aggregated first layer, its array is relu (A + b₁) · W₂, and
  the last stretch ends at the reference's result. No gather or scatter is opened: they are the same operations of
  equal operands on both sides. The reference computes the degree and the weights once per layer and the kernel once;
  the two copies are one term.
-/
import proofs.«169246_j67027259622057_2_alg».proof.Proof.Gen.KernelIdeal.Frame
import proofs.«169246_j67027259622057_2_alg».proof.Proof.Gen.ReferenceIdeal.Read
import proofs.«169246_j67027259622057_2_alg».proof.Proof.Region0
import proofs.«169246_j67027259622057_2_alg».proof.Proof.Region1
import Idealize.ShloMosaic.Lib.StableHlo.Run
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The argument arrays as launched: node features, edge list, W₁, b₁, W₂, b₂. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

/-- Narrowing to bf16 and widening back is the identity on the extended reals. -/
theorem ext_trunc {s : Shape} (X : FVec Ideal s .f32) (h : FTy.bits .bf16 < FTy.bits .f32) :
    extf (F := Ideal) .f32 (truncf (F := Ideal) .bf16 X h) h = X := rfl

/-- A 128-vector viewed as a 1 × 128 row, by a reshape or by a broadcast along a new leading axis: the same row. -/
theorem row_eq (b : Vec Ideal S128 .f32) :
    shapeCast S1x128 b Facts₀.shapeCasts_S128_S1x128
      = broadcastInDim Cert.ReferenceIdeal.S1x128 ![1] Cert.ReferenceIdeal.Facts₀.bcast_S128_S1x128_1 b := by
  funext j
  obtain ⟨p, l, rfl⟩ : ∃ (p : Fin 1) (l : Fin 128), j = ix2 p l := ⟨j 0, j 1, eq_ix2 j⟩
  have hl := l.isLt
  have hp := p.isLt
  have eL : shapeCast S1x128 b Facts₀.shapeCasts_S128_S1x128 (ix2 p l) = b (ix1 l) := by
    refine shapeCast_apply b _ (ix2 p l) (ix1 l) ?_
    rw [Shape.rowMajor_val_one, Shape.rowMajor_val_two]
    show l.val = p.val * 128 + l.val
    omega
  have eR : broadcastInDim Cert.ReferenceIdeal.S1x128 ![1] Cert.ReferenceIdeal.Facts₀.bcast_S128_S1x128_1 b (ix2 p l) = b (ix1 l) := by
    refine broadcastInDim_apply _ _ b (ix2 p l) (ix1 l) fun a => ?_
    match a with
    | ⟨0, _⟩ =>
      show l.val = if (128 : Nat) = 1 then 0 else l.val
      rw [if_neg (by decide)]
  exact eL.trans eR.symm

/-- The reference computes the edge weights and the self-loop weights again for its second layer: the same terms. -/
theorem norm_again (e : Vec Ideal Cert.ReferenceIdeal.S2x1600000 .i32) :
    Cert.ReferenceIdeal.Read.val_main_v81 (F := Ideal) e = Cert.ReferenceIdeal.Read.val_main_v31 (F := Ideal) e := rfl
theorem self_again (e : Vec Ideal Cert.ReferenceIdeal.S2x1600000 .i32) :
    Cert.ReferenceIdeal.Read.val_main_v95 (F := Ideal) e = Cert.ReferenceIdeal.Read.val_main_v45 (F := Ideal) e := rfl

/-! ## The first stretch: sources, targets, edge weights, self-loop weights; the arguments untouched -/

theorem w1_v1 (c : Dev nD) : W1 m ρ c (Proc.devRef .tc main_v1) = Cert.ReferenceIdeal.Read.val_main_v1 (F := Ideal) (a1 m c) := by
  show StableHlo.after hostOps0 (W0 m ρ c) (Proc.devRef .tc main_v1) = _
  after_results_simp <;> rfl

theorem w1_v3 (c : Dev nD) : W1 m ρ c (Proc.devRef .tc main_v3) = Cert.ReferenceIdeal.Read.val_main_v3 (F := Ideal) (a1 m c) := by
  show StableHlo.after hostOps0 (W0 m ρ c) (Proc.devRef .tc main_v3) = _
  after_results_simp <;> rfl

theorem w1_v30 (c : Dev nD) : W1 m ρ c (Proc.devRef .tc main_v30) = Cert.ReferenceIdeal.Read.val_main_v31 (F := Ideal) (a1 m c) := by
  show StableHlo.after hostOps0 (W0 m ρ c) (Proc.devRef .tc main_v30) = _
  after_results_simp <;> rfl

theorem w1_v31 (c : Dev nD) : W1 m ρ c (Proc.devRef .tc main_v31) = Cert.ReferenceIdeal.Read.val_main_v45 (F := Ideal) (a1 m c) := by
  show StableHlo.after hostOps0 (W0 m ρ c) (Proc.devRef .tc main_v31) = _
  after_results_simp <;> rfl

theorem w1_arg0 (c : Dev nD) : W1 m ρ c (Proc.devRef .tc main_arg0) = (a0 m c) := by
  show StableHlo.after hostOps0 (W0 m ρ c) (Proc.devRef .tc main_arg0) = _
  after_results_simp <;> rfl

theorem w1_arg2 (c : Dev nD) : W1 m ρ c (Proc.devRef .tc main_arg2) = (a2 m c) := by
  show StableHlo.after hostOps0 (W0 m ρ c) (Proc.devRef .tc main_arg2) = _
  after_results_simp <;> rfl

theorem w1_arg3 (c : Dev nD) : W1 m ρ c (Proc.devRef .tc main_arg3) = (a3 m c) := by
  show StableHlo.after hostOps0 (W0 m ρ c) (Proc.devRef .tc main_arg3) = _
  after_results_simp <;> rfl

theorem w1_arg4 (c : Dev nD) : W1 m ρ c (Proc.devRef .tc main_arg4) = (a4 m c) := by
  show StableHlo.after hostOps0 (W0 m ρ c) (Proc.devRef .tc main_arg4) = _
  after_results_simp <;> rfl

theorem w1_arg5 (c : Dev nD) : W1 m ρ c (Proc.devRef .tc main_arg5) = (a5 m c) := by
  show StableHlo.after hostOps0 (W0 m ρ c) (Proc.devRef .tc main_arg5) = _
  after_results_simp <;> rfl

/-! ## The first product's exit: its array is X · W₁, the rest as entered -/

theorem w2_v32 (c : Dev nD) : W2 m ρ c (Proc.devRef .tc main_v32)
    = truncf (F := Ideal) .bf16 (Cert.ReferenceIdeal.Read.val_main_v4 (F := Ideal) (a0 m c) (a2 m c)) Facts₀.bitsLt_bf16_f32 := by
  refine (W2_arr m ρ c 2).trans ((Cert.KernelIdeal.Region0.final (V1 m ρ) c).trans ?_)
  show truncf (F := Ideal) .bf16 (Cert.ReferenceIdeal.Read.val_main_v4 (F := Ideal) (W1 m ρ c (Proc.devRef .tc main_arg0)) (W1 m ρ c (Proc.devRef .tc main_arg2))) _ = _
  rw [w1_arg0, w1_arg2]

theorem w2_v1 (c : Dev nD) : W2 m ρ c (Proc.devRef .tc main_v1) = Cert.ReferenceIdeal.Read.val_main_v1 (F := Ideal) (a1 m c) :=
  (W2_of_ne m ρ c main_v1 (by decide)).trans (w1_v1 m ρ c)

theorem w2_v3 (c : Dev nD) : W2 m ρ c (Proc.devRef .tc main_v3) = Cert.ReferenceIdeal.Read.val_main_v3 (F := Ideal) (a1 m c) :=
  (W2_of_ne m ρ c main_v3 (by decide)).trans (w1_v3 m ρ c)

theorem w2_v30 (c : Dev nD) : W2 m ρ c (Proc.devRef .tc main_v30) = Cert.ReferenceIdeal.Read.val_main_v31 (F := Ideal) (a1 m c) :=
  (W2_of_ne m ρ c main_v30 (by decide)).trans (w1_v30 m ρ c)

theorem w2_v31 (c : Dev nD) : W2 m ρ c (Proc.devRef .tc main_v31) = Cert.ReferenceIdeal.Read.val_main_v45 (F := Ideal) (a1 m c) :=
  (W2_of_ne m ρ c main_v31 (by decide)).trans (w1_v31 m ρ c)

theorem w2_arg3 (c : Dev nD) : W2 m ρ c (Proc.devRef .tc main_arg3) = (a3 m c) :=
  (W2_of_ne m ρ c main_arg3 (by decide)).trans (w1_arg3 m ρ c)

theorem w2_arg4 (c : Dev nD) : W2 m ρ c (Proc.devRef .tc main_arg4) = (a4 m c) :=
  (W2_of_ne m ρ c main_arg4 (by decide)).trans (w1_arg4 m ρ c)

theorem w2_arg5 (c : Dev nD) : W2 m ρ c (Proc.devRef .tc main_arg5) = (a5 m c) :=
  (W2_of_ne m ρ c main_arg5 (by decide)).trans (w1_arg5 m ρ c)

/-! ## The second stretch: the first layer aggregated; the bias as a row; what the last stretch reads carried over -/

theorem w3_v50 (c : Dev nD) : W3 m ρ c (Proc.devRef .tc main_v50) = Cert.ReferenceIdeal.Read.val_main_v49 (F := Ideal) (a0 m c) (a1 m c) (a2 m c) := by
  show StableHlo.after hostOps1 (W2 m ρ c) (Proc.devRef .tc main_v50) = _
  after_results_simp
  rw [w2_v32, w2_v1, w2_v3, w2_v30, w2_v31]
  simp only [ext_trunc]
  rfl

theorem w3_v51 (c : Dev nD) : W3 m ρ c (Proc.devRef .tc main_v51) = Cert.ReferenceIdeal.Read.val_main_v50 (F := Ideal) (a3 m c) := by
  show StableHlo.after hostOps1 (W2 m ρ c) (Proc.devRef .tc main_v51) = _
  after_results_simp
  rw [w2_arg3]
  exact row_eq (a3 m c)

theorem w3_v1 (c : Dev nD) : W3 m ρ c (Proc.devRef .tc main_v1) = Cert.ReferenceIdeal.Read.val_main_v1 (F := Ideal) (a1 m c) := by
  show StableHlo.after hostOps1 (W2 m ρ c) (Proc.devRef .tc main_v1) = _
  after_results_simp
  exact w2_v1 m ρ c

theorem w3_v3 (c : Dev nD) : W3 m ρ c (Proc.devRef .tc main_v3) = Cert.ReferenceIdeal.Read.val_main_v3 (F := Ideal) (a1 m c) := by
  show StableHlo.after hostOps1 (W2 m ρ c) (Proc.devRef .tc main_v3) = _
  after_results_simp
  exact w2_v3 m ρ c

theorem w3_v30 (c : Dev nD) : W3 m ρ c (Proc.devRef .tc main_v30) = Cert.ReferenceIdeal.Read.val_main_v31 (F := Ideal) (a1 m c) := by
  show StableHlo.after hostOps1 (W2 m ρ c) (Proc.devRef .tc main_v30) = _
  after_results_simp
  exact w2_v30 m ρ c

theorem w3_v31 (c : Dev nD) : W3 m ρ c (Proc.devRef .tc main_v31) = Cert.ReferenceIdeal.Read.val_main_v45 (F := Ideal) (a1 m c) := by
  show StableHlo.after hostOps1 (W2 m ρ c) (Proc.devRef .tc main_v31) = _
  after_results_simp
  exact w2_v31 m ρ c

theorem w3_arg4 (c : Dev nD) : W3 m ρ c (Proc.devRef .tc main_arg4) = (a4 m c) := by
  show StableHlo.after hostOps1 (W2 m ρ c) (Proc.devRef .tc main_arg4) = _
  after_results_simp
  exact w2_arg4 m ρ c

theorem w3_arg5 (c : Dev nD) : W3 m ρ c (Proc.devRef .tc main_arg5) = (a5 m c) := by
  show StableHlo.after hostOps1 (W2 m ρ c) (Proc.devRef .tc main_arg5) = _
  after_results_simp
  exact w2_arg5 m ρ c

/-! ## The second product's exit: its array is relu (A + b₁) · W₂, the rest as entered -/

theorem w4_v52 (c : Dev nD) : W4 m ρ c (Proc.devRef .tc main_v52)
    = truncf (F := Ideal) .bf16 (Cert.ReferenceIdeal.Read.val_main_v54 (F := Ideal) (a0 m c) (a1 m c) (a2 m c) (a3 m c) (a4 m c)) Facts₀.bitsLt_bf16_f32 := by
  refine (W4_arr m ρ c 3).trans ((Cert.KernelIdeal.Region1.final (V3 m ρ) c).trans ?_)
  show truncf (F := Ideal) .bf16 (Cert.Dense.second (W3 m ρ c (Proc.devRef .tc main_v50)) (W3 m ρ c (Proc.devRef .tc main_v51)) (W3 m ρ c (Proc.devRef .tc main_arg4))) _ = _
  rw [w3_v50, w3_v51, w3_arg4]
  rfl

theorem w4_v1 (c : Dev nD) : W4 m ρ c (Proc.devRef .tc main_v1) = Cert.ReferenceIdeal.Read.val_main_v1 (F := Ideal) (a1 m c) :=
  (W4_of_ne m ρ c main_v1 (by decide)).trans (w3_v1 m ρ c)

theorem w4_v3 (c : Dev nD) : W4 m ρ c (Proc.devRef .tc main_v3) = Cert.ReferenceIdeal.Read.val_main_v3 (F := Ideal) (a1 m c) :=
  (W4_of_ne m ρ c main_v3 (by decide)).trans (w3_v3 m ρ c)

theorem w4_v30 (c : Dev nD) : W4 m ρ c (Proc.devRef .tc main_v30) = Cert.ReferenceIdeal.Read.val_main_v31 (F := Ideal) (a1 m c) :=
  (W4_of_ne m ρ c main_v30 (by decide)).trans (w3_v30 m ρ c)

theorem w4_v31 (c : Dev nD) : W4 m ρ c (Proc.devRef .tc main_v31) = Cert.ReferenceIdeal.Read.val_main_v45 (F := Ideal) (a1 m c) :=
  (W4_of_ne m ρ c main_v31 (by decide)).trans (w3_v31 m ρ c)

theorem w4_arg5 (c : Dev nD) : W4 m ρ c (Proc.devRef .tc main_arg5) = (a5 m c) :=
  (W4_of_ne m ρ c main_arg5 (by decide)).trans (w3_arg5 m ρ c)

/-! ## The last stretch: the second layer aggregated and its bias added — the reference's result -/

theorem result_eq (c : Dev nD) : W5 m ρ c (Proc.devRef .tc main_v73)
    = Cert.ReferenceIdeal.Read.val_main_v102 (F := Ideal) (a0 m c) (a1 m c) (a2 m c) (a3 m c) (a4 m c) (a5 m c) := by
  show StableHlo.after hostOps2 (W4 m ρ c) (Proc.devRef .tc main_v73) = _
  after_results_simp
  rw [w4_v52, w4_v1, w4_v3, w4_v30, w4_v31, w4_arg5, ← norm_again, ← self_again]
  simp only [ext_trunc]
  rfl

end Cert.KernelIdeal.Fold

end
-- ==== Proof.lean ====
/-
  A two-layer graph convolution: out = Â · relu (Â · (X W₁) + b₁) · W₂ + b₂ with Â the symmetrically normalised adjacency with
  self loops, applied as a gather of rows at the edge sources, a product with the per-edge weight dinv[src] · dinv[dst],
  a scatter-add into the edge targets, and the self-loop term h · dinv².

  The kernel computes the two dense products X · W₁ and relu (A + b₁) · W₂ in two row-tiled regions of ten blocks of
  10000 rows (operands narrowed to bf16 and the result narrowed and widened again, all the identity on the extended
  reals; each product accumulated into zero, so the plain sum over k) and leaves everything else to the same host
  operations the reference uses; it adds b₁ inside the second region where the reference adds it on the host, and it
  computes the degree and the two weights once where the reference computes them once per layer.

  So the proof has three parts. The kernel's run names its result as the last boundary of a fold through @main's five
  segments (Proof/KRun.lean). Each region's output array is the whole-array product of the arrays it is entered with:
  a product's row reads one row of its left operand, so a block of rows of the result is the body's value on that block
  of rows, and the ten blocks cover the array (Proof/Dense.lean over Proof/LibTile.lean; Proof/Region0.lean,
  Proof/Region1.lean). And walking the fold back boundary by boundary, every buffer a later segment reads is one of the
  reference's stages as a function of the arguments, with no gather or scatter ever opened: equal operations of equal
  operands (Proof/Fold.lean). No law here needs finiteness: the precondition is never opened.
-/
import proofs.«169246_j67027259622057_2_alg».proof.Defs
import proofs.«169246_j67027259622057_2_alg».proof.Proof.Gen.Kernel
import proofs.«169246_j67027259622057_2_alg».proof.Proof.Gen.Kernel.Skeleton
import proofs.«169246_j67027259622057_2_alg».proof.Proof.Gen.Kernel.Launch
import proofs.«169246_j67027259622057_2_alg».proof.Proof.Gen.Kernel.Points
import proofs.«169246_j67027259622057_2_alg».proof.Proof.Gen.Kernel.Frame
import proofs.«169246_j67027259622057_2_alg».proof.Proof.Gen.KernelIdeal
import proofs.«169246_j67027259622057_2_alg».proof.Proof.Gen.KernelIdeal.Skeleton
import proofs.«169246_j67027259622057_2_alg».proof.Proof.Gen.KernelIdeal.Launch
import proofs.«169246_j67027259622057_2_alg».proof.Proof.Gen.KernelIdeal.Points
import proofs.«169246_j67027259622057_2_alg».proof.Proof.Gen.KernelIdeal.Frame
import proofs.«169246_j67027259622057_2_alg».proof.Proof.Gen.ReferenceIdeal
import proofs.«169246_j67027259622057_2_alg».proof.Proof.Gen.Pre_finite_inputs
import proofs.«169246_j67027259622057_2_alg».proof.Proof.Gen.ReferenceIdeal.Run
import proofs.«169246_j67027259622057_2_alg».proof.Proof.Gen.ReferenceIdeal.Read
import proofs.«169246_j67027259622057_2_alg».proof.Proof.KRun
import proofs.«169246_j67027259622057_2_alg».proof.Proof.Fold
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the arguments: the
    kernel by its fold walked back (`Fold.result_eq`), the reference by its run read one operation at a time. -/
theorem algebraic : Cert.algebraic_KernelIdeal_ReferenceIdeal := by
  intro m ρ m' ρ' _ hagree
  refine ⟨fun c => Cert.ReferenceIdeal.Read.val_main_v102 (F := Ideal) (Cert.KernelIdeal.Fold.a0 m c) (Cert.KernelIdeal.Fold.a1 m c)
    (Cert.KernelIdeal.Fold.a2 m c) (Cert.KernelIdeal.Fold.a3 m c) (Cert.KernelIdeal.Fold.a4 m c) (Cert.KernelIdeal.Fold.a5 m c), ?_, ?_⟩
  · exact (θ_run Cert.KernelIdeal.defs _ _).mono
      (fun _ h c => ⟨(h c).1.trans (Cert.KernelIdeal.Fold.result_eq m ρ c), (h c).2⟩)
      (Cert.KernelIdeal.Hand.run_fold (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v102_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
